-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000 .f32) (main_arg2 : IVec S800000 32) (main_arg3 : IVec S800000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 34
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x1, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S1x128, .f32⟩
  | .hbm, ⟨33, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowCombine.lean ====
/-
  One entry of the combine stage, as a function of ONE row.

  The stage maps a node's feature row `f`, its aggregated neighbour row `n`, the sum `w` of the weights of the
  edges that reach the node, two weight matrices `A`, `B` (each already transposed: entry `(k, q)` multiplies
  input feature `k` into output feature `q`) and the two bias entries `bs`, `bn` of output feature `q` to

      ((Σₖ f k · A (k, q) + bs) + Σₖ (n k / max w 1) · B (k, q) + bn) · ½ .

  Entry `(r, q)` of the result depends on row `r` of the two row arrays and on entry `r` of the weight sums only,
  so the same function describes a block of rows and the whole array: this module states it once, over the
  extended reals, with no program in sight. It also evaluates the two float words whose values matter — `2.0` and
  `0.5` — and proves the one law that joins "times one half" and "divided by two": it holds for EVERY extended
  real, the infinities included, because division by a nonzero real IS multiplication by its reciprocal there.
  (The word of `1.0` under the maximum is the same word wherever it occurs, so it is never evaluated.)
-/
import Idealize.ShloMosaic.PureOps.Ideal
import Idealize.ShloMosaic.Lib.ValueIdx

noncomputable section

namespace Cert.Combine

open Idealize.ShloMosaic Idealize.ShloMosaic.ValueIdx
open scoped BigOperators

/-- The float word of `2.0` denotes the real `2`. -/
theorem ofBits_two : Ideal.ofBits .f32 0x40000000#32 = ((2 : ℝ) : EReal) := by
  simp [Ideal.ofBits, Ideal.ieee, -EReal.coe_mul]; norm_num

/-- The float word of `0.5` denotes the real `1/2`. -/
theorem ofBits_half : Ideal.ofBits .f32 0x3F000000#32 = ((1 / 2 : ℝ) : EReal) := by
  simp [Ideal.ofBits, Ideal.ieee, -EReal.coe_mul]; norm_num

/-- HALVING: an extended real divided by `2.0` is that extended real times `0.5` — at `±∞` too, since dividing by
    the nonzero real `2` is multiplying by the real `1/2`. No finiteness is asked of `x`. -/
theorem div_two_eq_mul_half (x : EReal) :
    Ideal.div x (Ideal.ofBits .f32 0x40000000#32) = x * Ideal.ofBits .f32 0x3F000000#32 := by
  rw [ofBits_two, ofBits_half]
  exact Ideal.div_coe (by norm_num) x

/-- The sum of the four terms of one entry, before halving: the row's own projection plus its bias, plus the
    projection of the neighbour row divided by the clamped weight sum, plus that bias — associated to the left,
    as both programs add them. -/
def rowSum (f n : Fin 128 → EReal) (w : EReal) (A B : (⟨2, ![128, 128]⟩ : Shape).Idx → EReal) (bs bn : EReal)
    (q : Fin 128) : EReal :=
  (((∑ k : Fin 128, f k * A (ix2 k q)) + bs)
      + ∑ k : Fin 128, Ideal.div (n k) (max w (Ideal.ofBits .f32 0x3F800000#32)) * B (ix2 k q))
    + bn

/-- One entry of the result: the four-term sum, halved. -/
def rowOut (f n : Fin 128 → EReal) (w : EReal) (A B : (⟨2, ![128, 128]⟩ : Shape).Idx → EReal) (bs bn : EReal)
    (q : Fin 128) : EReal :=
  rowSum f n w A B bs bn q * Ideal.ofBits .f32 0x3F000000#32

/-- The same entry with the halving spelt as a division by `2.0`. -/
theorem rowSum_div_two (f n : Fin 128 → EReal) (w : EReal) (A B : (⟨2, ![128, 128]⟩ : Shape).Idx → EReal)
    (bs bn : EReal) (q : Fin 128) :
    Ideal.div (rowSum f n w A B bs bn q) (Ideal.ofBits .f32 0x40000000#32) = rowOut f n w A B bs bn q :=
  div_two_eq_mul_half _

end Cert.Combine

end
-- ==== Proof.BlockEntry.lean ====
/-
  The value the body stores, read at one entry of the block.

  At a grid point the body holds seven blocks: 2000 rows of the features (`x0`) and of the aggregated neighbour
  rows (`x1`), the matching 2000 weight sums as a column (`x2`), the two transposed weight matrices whole (`x3`, `x5`)
  and the two biases as single rows (`x4`, `x6`). It stores one value over the whole block. At the ideal values a
  change of float format is the identity and a matrix product into a zero accumulator is the plain sum over the
  contracted axis, so entry `(p, q)` of that value is the row function of Proof/RowCombine.lean at row `p` of the two
  row blocks, entry `(p, 0)` of the column, and entry `(0, q)` of each bias row.

  The steps: the product's operand indices at output entry `(p, q)` and contraction index `k` are `(p, k)` and `(k, q)`;
  a column `[2000, 1]` broadcast along its unit axis reads `(p, k)` at `(p, 0)`; a row `[1, 128]` broadcast over the
  rows reads `(p, q)` at `(0, q)`; the pointwise operations commute with reading at an index.
-/
import proofs.«115637_j53704271069550_1_alg».proof.Proof.Gen.KernelIdeal.Skeleton
import proofs.«115637_j53704271069550_1_alg».proof.Proof.RowCombine
import Idealize.ShloMosaic.Lib.Pipeline.Value
import Idealize.ShloMosaic.Lib.ValueIdx
import Idealize.ShloMosaic.Lib.ValueLayout
import Idealize.ShloMosaic.PureOps.Ideal.Laws

noncomputable section

namespace Cert.Combine.Block

open Cert.KernelIdeal Cert.KernelIdeal.Gen Idealize.ShloMosaic Idealize.ShloMosaic.ValueIdx Cert.Combine
open scoped BigOperators

/-! ## The block product's operand indices -/

/-- The left operand is read in the output entry's row. -/
theorem lhs_row (j : S2000x128.Idx) (c : dot_S2000x128_S128x128_S2000x128_1_0_0_1_n_n.contr.Idx) :
    (dot_S2000x128_S128x128_S2000x128_1_0_0_1_n_n.lhsIdx j c 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … at the contraction index as its column. -/
theorem lhs_col (j : S2000x128.Idx) (c : dot_S2000x128_S128x128_S2000x128_1_0_0_1_n_n.contr.Idx) :
    (dot_S2000x128_S128x128_S2000x128_1_0_0_1_n_n.lhsIdx j c 1).val = (c ⟨0, by decide⟩).val :=
  dot_S2000x128_S128x128_S2000x128_1_0_0_1_n_n.lhsIdx_val_of_single rfl j c

/-- The right operand is read at the contraction index as its row … -/
theorem rhs_row (j : S2000x128.Idx) (c : dot_S2000x128_S128x128_S2000x128_1_0_0_1_n_n.contr.Idx) :
    (dot_S2000x128_S128x128_S2000x128_1_0_0_1_n_n.rhsIdx j c 0).val = (c ⟨0, by decide⟩).val :=
  dot_S2000x128_S128x128_S2000x128_1_0_0_1_n_n.rhsIdx_val_of_single rfl j c

/-- … in the output entry's column. -/
theorem rhs_col (j : S2000x128.Idx) (c : dot_S2000x128_S128x128_S2000x128_1_0_0_1_n_n.contr.Idx) :
    (dot_S2000x128_S128x128_S2000x128_1_0_0_1_n_n.rhsIdx j c 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A `[2000, 128] × [128, 128]` product into a zero accumulator, at entry `(p, q)`: the sum over `k` of the left
    operand's `(p, k)` times the right operand's `(k, q)`. -/
theorem matmul_entry (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## The two broadcasts -/

/-- A column `[2000, 1]` broadcast along its unit axis to `[2000, 128]` reads, at `(p, k)`, the column's entry `p`. -/
theorem col_entry (v : S2000x1.Idx → EReal) (h : S2000x1.Broadcasts S2000x128) (p : Fin 2000) (k : Fin 128) :
    broadcastTo S2000x128 v h (ix2 p k) = v (ix2 p (0 : Fin 1)) := by
  refine broadcastTo_apply v h (ix2 p k) (ix2 p (0 : Fin 1)) fun ax => ?_
  match ax with
  | ⟨0, _⟩ => show p.val = if (2000 : Nat) = 1 then 0 else p.val; rw [if_neg (by decide)]
  | ⟨1, _⟩ => show (0 : Nat) = if (1 : Nat) = 1 then 0 else k.val; rw [if_pos rfl]

/-- A row `[1, 128]` broadcast over 2000 rows reads, at `(p, q)`, the row's entry `q`. -/
theorem row_entry (v : S1x128.Idx → EReal) (h : S1x128.Broadcasts S2000x128) (p : Fin 2000) (q : Fin 128) :
    broadcastTo S2000x128 v h (ix2 p q) = v (ix2 (0 : Fin 1) q) :=
  broadcastTo_1b_ab_apply v h p q

/-! ## The neighbour product -/

/-- The product whose left operand is the neighbour block divided, row by row, by the column of clamped weight
    sums: at `(p, q)` every factor of row `p` is divided by the ONE clamped sum of that row. -/
theorem neigh_entry (x1 : FVec Ideal S2000x128 .f32) (x2 : FVec Ideal S2000x1 .f32) (one : EReal)
    (r : FVec Ideal S128x128 .bf16) (hb : S2000x1.Broadcasts S2000x128) (hlt : FTy.bits .bf16 < FTy.bits .f32)
    (p : Fin 2000) (q : Fin 128) :
    matmul dot_S2000x128_S128x128_S2000x128_1_0_0_1_n_n none
        (truncf .bf16 (divf x1 (broadcastTo S2000x128 (maximumf x2 (broadcast S2000x1 one)) hb)) hlt) r
        (constant S2000x128 .f32 0x00000000#32) (ix2 p q)
      = ∑ k : Fin 128, Ideal.div (x1 (ix2 p k)) (max (x2 (ix2 p (0 : Fin 1))) one) * r (ix2 k q) := by
  rw [matmul_entry]
  refine Finset.sum_congr rfl fun k _ => ?_
  show Ideal.div (x1 (ix2 p k)) (broadcastTo S2000x128 (maximumf x2 (broadcast S2000x1 one)) hb (ix2 p k)) * r (ix2 k q) = _
  rw [col_entry]
  rfl

/-! ## The stored value at an entry -/

/-- ENTRY `(p, q)` OF WHAT THE BODY STORES is the row function at row `p` of the feature and neighbour blocks, the
    weight sum at `(p, 0)`, the two matrix blocks, and the biases' entries `(0, q)`. -/
theorem pay_entry (x0 x1 : Vec Ideal S2000x128 .f32) (x2 : Vec Ideal S2000x1 .f32) (x3 : Vec Ideal S128x128 .f32)
    (x4 : Vec Ideal S1x128 .f32) (x5 : Vec Ideal S128x128 .f32) (x6 : Vec Ideal S1x128 .f32) (p : Fin 2000) (q : Fin 128) :
    k0_pay1 (F := Ideal) x0 x1 x2 x3 x4 x5 x6 (ix2 p q)
      = rowOut (fun k => x0 (ix2 p k)) (fun k => x1 (ix2 p k)) (x2 (ix2 p (0 : Fin 1))) x3 x5
          (x4 (ix2 (0 : Fin 1) q)) (x6 (ix2 (0 : Fin 1) q)) q := by
  unfold k0_pay1 rowOut rowSum
  dsimp only
  simp only [shapeCast_self, mulf_apply, addf_apply, broadcast_apply, Ideal.ofBits_def]
  rw [matmul_entry, neigh_entry, row_entry, row_entry]
  rfl

end Cert.Combine.Block

end
-- ==== Proof.KernelArray.lean ====
/-
  From the blocks to the whole array.

  The grid has 25 points. Point `t` reads rows `2000·t … 2000·t + 1999` of the features, of the aggregated neighbour
  rows and of the column of weight sums, reads the two matrices and the two bias rows whole, and writes rows
  `2000·t … 2000·t + 1999` of the result. An element `(p, k)` of a block sits in its array at (block index × block
  size + coordinate) on each axis; the row windows' block index on the row axis is the output window's, and every
  other block index is 0 (decided once over the 25 points). So what point `t` writes back is block `t` of ONE
  function of the arrays the region finds (`found`): entry `(r, q)` is the row function at row `r`. The 25 blocks
  tile the 50000 rows — row `r` lies in block `r / 2000` — so after the run the result array IS that function.
-/
import proofs.«115637_j53704271069550_1_alg».proof.Proof.Gen.KernelIdeal.Value
import proofs.«115637_j53704271069550_1_alg».proof.Proof.BlockEntry
import Idealize.ShloMosaic.Lib.Pipeline.Value
import Idealize.ShloMosaic.Lib.ValueIdx
import Idealize.ShloMosaic.PureOps.Ideal

noncomputable section

namespace Cert.Combine.Array

open Cert.KernelIdeal Cert.KernelIdeal.Gen Idealize.ShloMosaic Idealize.ShloMosaic.TcCoe Idealize.SL.Sem
open Idealize.ShloMosaic.ValueIdx Cert.Combine
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as a function of the arrays AS THE REGION FINDS THEM: the weight sums as a column `C`, the biases as
    single rows `rs`, `rn`. Entry `(r, q)` is the row function at row `r`, at `C (r, 0)` and at the rows' entries `(0, q)`. -/
def found (A0 NE : S50000x128.Idx → EReal) (C : S50000x1.Idx → EReal) (At : S128x128.Idx → EReal)
    (rs : S1x128.Idx → EReal) (Bt : S128x128.Idx → EReal) (rn : S1x128.Idx → EReal) : S50000x128.Idx → EReal :=
  fun i => rowOut (fun k => A0 (ix2 (i 0) k)) (fun k => NE (ix2 (i 0) k)) (C (ix2 (i 0) (0 : Fin 1))) At Bt
    (rs (ix2 (0 : Fin 1) (i 1))) (rn (ix2 (0 : Fin 1) (i 1))) (i 1)

/-- What the body stores, at any index `j` of the block, through `j`'s two coordinates. -/
theorem pay_at (x0 x1 : Vec Ideal S2000x128 .f32) (x2 : Vec Ideal S2000x1 .f32) (x3 : Vec Ideal S128x128 .f32)
    (x4 : Vec Ideal S1x128 .f32) (x5 : Vec Ideal S128x128 .f32) (x6 : Vec Ideal S1x128 .f32) (j : S2000x128.Idx) :
    k0_pay1 (F := Ideal) x0 x1 x2 x3 x4 x5 x6 j
      = rowOut (fun k => x0 (ix2 (j 0) k)) (fun k => x1 (ix2 (j 0) k)) (x2 (ix2 (j 0) (0 : Fin 1))) x3 x5
          (x4 (ix2 (0 : Fin 1) (j 1))) (x6 (ix2 (0 : Fin 1) (j 1))) (j 1) :=
  (congrArg (k0_pay1 (F := Ideal) x0 x1 x2 x3 x4 x5 x6) (eq_ix2 j)).trans
    (Block.pay_entry x0 x1 x2 x3 x4 x5 x6 (j 0) (j 1))

/-- The printed index maps over the grid: the three row windows move with the output window along the rows; every
    other block index is 0; the output's row block index is at most 24. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 24 ∧ win0_7.index t (1 : Fin 2) = 0 :=
  (by decide +kernel : ∀ t : Fin grid0.N, _)

/-- Every one of the 25 row blocks is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-- BLOCKWISE, for ANY seven arrays: what the body stores from their blocks at point `t` is block `t` of `found` of the
    arrays. Each block element is placed in its array relative to the output block's element: the row windows share
    the output's row offset, and every other offset is 0. -/
theorem blockwise (t : Fin cfg0.N) (A0 NE : S50000x128.Idx → EReal) (C : S50000x1.Idx → EReal)
    (At : S128x128.Idx → EReal) (rs : S1x128.Idx → EReal) (Bt : S128x128.Idx → EReal) (rn : S1x128.Idx → EReal)
    (j : S2000x128.Idx) :
    k0_pay1 (F := Ideal) (((cfg0.win 0).blk t).view.read (Elt Ideal) A0) (((cfg0.win 1).blk t).view.read (Elt Ideal) NE)
        (((cfg0.win 2).blk t).view.read (Elt Ideal) C) (((cfg0.win 3).blk t).view.read (Elt Ideal) At)
        (((cfg0.win 4).blk t).view.read (Elt Ideal) rs) (((cfg0.win 5).blk t).view.read (Elt Ideal) Bt)
        (((cfg0.win 6).blk t).view.read (Elt Ideal) rn) j
      = ((cfg0.win 7).blk t).view.read (Elt Ideal) (found A0 NE C At rs Bt rn) j := by
  obtain ⟨e00, e01, e10, e11, e20, e21, e30, e31, e40, e41, e50, e51, e60, e61, e70, e71⟩ := idx_facts t
  refine (pay_at _ _ _ _ _ _ _ j).trans ?_
  have h0 : ∀ k : Fin 128, ((cfg0.win 0).blk t).view.emb (ix2 (j 0) k) = ix2 ((((cfg0.win 7).blk t).view.emb j) 0) k := fun k => by
    funext a; apply Fin.ext
    match a with
    | ⟨0, _⟩ => show win0_0.index t (0 : Fin 2) * 2000 + 1 * (j 0).val = win0_7.index t (0 : Fin 2) * 2000 + 1 * (j 0).val; omega
    | ⟨1, _⟩ => show win0_0.index t (1 : Fin 2) * 128 + 1 * k.val = k.val; omega
  have h1 : ∀ k : Fin 128, ((cfg0.win 1).blk t).view.emb (ix2 (j 0) k) = ix2 ((((cfg0.win 7).blk t).view.emb j) 0) k := fun k => by
    funext a; apply Fin.ext
    match a with
    | ⟨0, _⟩ => show win0_1.index t (0 : Fin 2) * 2000 + 1 * (j 0).val = win0_7.index t (0 : Fin 2) * 2000 + 1 * (j 0).val; omega
    | ⟨1, _⟩ => show win0_1.index t (1 : Fin 2) * 128 + 1 * k.val = k.val; omega
  have h2 : ((cfg0.win 2).blk t).view.emb (ix2 (j 0) (0 : Fin 1)) = ix2 ((((cfg0.win 7).blk t).view.emb j) 0) (0 : Fin 1) := by
    funext a; apply Fin.ext
    match a with
    | ⟨0, _⟩ => show win0_2.index t (0 : Fin 2) * 2000 + 1 * (j 0).val = win0_7.index t (0 : Fin 2) * 2000 + 1 * (j 0).val; omega
    | ⟨1, _⟩ => show win0_2.index t (1 : Fin 2) * 1 + 1 * 0 = 0; omega
  have h3 : ∀ y : S128x128.Idx, ((cfg0.win 3).blk t).view.emb y = y := fun y => by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : ∀ y : S1x128.Idx, ((cfg0.win 4).blk t).view.emb y = y := fun y => by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  have h5 : ∀ y : S128x128.Idx, ((cfg0.win 5).blk t).view.emb y = y := fun y => by
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  have h6 : ∀ y : S1x128.Idx, ((cfg0.win 6).blk t).view.emb y = y := fun y => by
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  have h7 : (((cfg0.win 7).blk t).view.emb j) 1 = j 1 := by
    apply Fin.ext
    show win0_7.index t (1 : Fin 2) * 128 + 1 * (j 1).val = (j 1).val; omega
  show rowOut (fun k => A0 (((cfg0.win 0).blk t).view.emb (ix2 (j 0) k))) (fun k => NE (((cfg0.win 1).blk t).view.emb (ix2 (j 0) k)))
      (C (((cfg0.win 2).blk t).view.emb (ix2 (j 0) (0 : Fin 1)))) (fun y => At (((cfg0.win 3).blk t).view.emb y))
      (fun y => Bt (((cfg0.win 5).blk t).view.emb y)) (rs (((cfg0.win 4).blk t).view.emb (ix2 (0 : Fin 1) (j 1))))
      (rn (((cfg0.win 6).blk t).view.emb (ix2 (0 : Fin 1) (j 1)))) (j 1)
    = rowOut (fun k => A0 (ix2 ((((cfg0.win 7).blk t).view.emb j) 0) k)) (fun k => NE (ix2 ((((cfg0.win 7).blk t).view.emb j) 0) k))
      (C (ix2 ((((cfg0.win 7).blk t).view.emb j) 0) (0 : Fin 1))) At Bt
      (rs (ix2 (0 : Fin 1) ((((cfg0.win 7).blk t).view.emb j) 1))) (rn (ix2 (0 : Fin 1) ((((cfg0.win 7).blk t).view.emb j) 1))) ((((cfg0.win 7).blk t).view.emb j) 1)
  simp only [h0, h1, h2, h3, h4, h5, h6, h7]
  rfl

/-! Each input window's block at a point is that block of the array the region finds for it. -/
theorem iblk0 (c : Dev nD) (t : Fin cfg0.N) : iblk m c 0 t = (((cfg0.win 0).blk t).view.read (Elt Ideal) (V m c main_arg0)) := rfl
theorem iblk1 (c : Dev nD) (t : Fin cfg0.N) : iblk m c 1 t = (((cfg0.win 1).blk t).view.read (Elt Ideal) (V m c main_v12)) := rfl
theorem iblk2 (c : Dev nD) (t : Fin cfg0.N) : iblk m c 2 t = (((cfg0.win 2).blk t).view.read (Elt Ideal) (V m c main_v16)) := rfl
theorem iblk3 (c : Dev nD) (t : Fin cfg0.N) : iblk m c 3 t = (((cfg0.win 3).blk t).view.read (Elt Ideal) (V m c main_v17)) := rfl
theorem iblk4 (c : Dev nD) (t : Fin cfg0.N) : iblk m c 4 t = (((cfg0.win 4).blk t).view.read (Elt Ideal) (V m c main_v19)) := rfl
theorem iblk5 (c : Dev nD) (t : Fin cfg0.N) : iblk m c 5 t = (((cfg0.win 5).blk t).view.read (Elt Ideal) (V m c main_v18)) := rfl
theorem iblk6 (c : Dev nD) (t : Fin cfg0.N) : iblk m c 6 t = (((cfg0.win 6).blk t).view.read (Elt Ideal) (V m c main_v20)) := rfl

/-- WHAT POINT `t` WRITES BACK is block `t` of `found` of the arrays the region finds. -/
theorem flushed_eq (c : Dev nD) (t : Fin cfg0.N) :
    (dats m 0 c).flushed 7 t = ((cfg0.win 7).blk t).view.read (Elt Ideal)
      (found (V m c main_arg0) (V m c main_v12) (V m c main_v16) (V m c main_v17) (V m c main_v19) (V m c main_v18)
        (V m c main_v20)) := by
  rw [Value.flushed7]
  unfold out0_7
  rw [View.canon_unit_zero hz]
  simp only [View.ld_unit_zero (S := S2000x128) hz, View.ld_unit_zero (S := S2000x1) hz,
    View.ld_unit_zero (S := S128x128) hz, View.ld_unit_zero (S := S1x128) hz]
  funext j
  show k0_pay1 (F := Ideal) (iblk m c 0 t) (iblk m c 1 t) (iblk m c 2 t) (iblk m c 3 t) (iblk m c 4 t) (iblk m c 5 t)
      (iblk m c 6 t) j = _
  rw [iblk0, iblk1, iblk2, iblk3, iblk4, iblk5, iblk6]
  exact blockwise t _ _ _ _ _ _ _ j

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v21).slice (win0_7.rect t)).set ↔ _
  rw [View.set_slice_whole, Rect.mem_set_unit]
  exact Iff.rfl

/-- THE BLOCKS TILE THE ARRAY: row `r` lies in the block of point `r / 2000`. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- THE RESULT ARRAY after the run is `found` of the arrays the region finds. -/
theorem final (c : Dev nD) :
    (dats m 0 c).arrAt 7 cfg0.N
      = found (V m c main_arg0) (V m c main_v12) (V m c main_v16) (V m c main_v17) (V m c main_v19) (V m c main_v18)
          (V m c main_v20) :=
  (dats m 0 c).arrAt_eq_of_cover 7 _ (fun t _ => flushed_eq m c t) cover

/-- The run, re-posted: the result array at `found`, the arguments unchanged. -/
theorem run_found : θ_run defs (onTc (τ := τ) (main (F := Ideal))) ⟨m, fun _ => 0, ρ⟩ fun r => ∀ c : Dev nD,
      r.2.mem ((c : Thread nD τ).loc main_v21)
        = found (V m c main_arg0) (V m c main_v12) (V m c main_v16) (V m c main_v17) (V m c main_v19) (V m c main_v18)
            (V m c main_v20)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Combine.Array

end
-- ==== Proof.Whole.lean ====
/-
  The result array as ONE function of the arrays both programs are given.

  Both programs begin with the same aggregation over the edges: every edge carries its source node's feature row,
  scaled by the edge's weight, to its destination node, where the rows add up (`neighOf`), and the weights
  themselves add up per destination (`wsOf`). The two programs spell this stage with the same operations on the
  same arguments, so it is named here once and never opened: nothing below depends on what a gather or a
  scatter-add computes, only on both sides applying the same one.

  After it, entry `(r, q)` of the result is the row function of Proof/RowCombine.lean at row `r` of the features and
  of the aggregated rows, the weight sum of node `r`, the two transposed weight matrices, and entry `q` of each bias
  vector (`entry`, `G`).
-/
import proofs.«115637_j53704271069550_1_alg».proof.KernelIdeal
import proofs.«115637_j53704271069550_1_alg».proof.Proof.RowCombine

noncomputable section

namespace Cert.Combine

open Cert.KernelIdeal Idealize.ShloMosaic Idealize.ShloMosaic.ValueIdx

variable [Cert.KernelIdeal.Facts]
open Cert.KernelIdeal.Facts₀ Cert.KernelIdeal.Facts

/-- THE AGGREGATED NEIGHBOUR ROWS: for every edge the feature row of its source node (a negative source index
    counted from the end) times the edge's weight, added into the row of its destination node, from zero. -/
def neighOf (a0 : (⟨S50000x128, .f32⟩ : BufTy).Contents (Elt Ideal)) (a1 : (⟨S800000, .f32⟩ : BufTy).Contents (Elt Ideal))
    (a2 a3 : (⟨S800000, .i32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 a3)
    (mulf (F := Ideal)
      (Host.gather gather_S50000x128_S800000x1_S800000x128_1_0_n_n_0_1_1128 a0
        (broadcastInDim S800000x1 ![0] bcast_S800000_S800000x1_0
          (select (cmpi .slt a2 (broadcastInDim S800000 ![] bcast_S_S800000 (constantI S_ 32 0#32)))
            (addi a2 (broadcastInDim S800000 ![] bcast_S_S800000 (constantI S_ 32 50000#32))) a2)))
      (broadcastInDim S800000x128 ![0, 1] bcast_S800000x1_S800000x128_0_1
        (broadcastInDim S800000x1 ![0] bcast_S800000_S800000x1_0 a1)))

/-- THE WEIGHT SUMS: every edge's weight added into the entry of its destination node, from zero. -/
def wsOf (a1 : (⟨S800000, .f32⟩ : BufTy).Contents (Elt Ideal)) (a3 : (⟨S800000, .i32⟩ : BufTy).Contents (Elt Ideal)) :
    (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 a3)
    a1

/-- Entry `(r, q)` of the result, from the features `A0`, the aggregated rows `NE`, the weight sums `WS`, the two
    transposed weight matrices `At`, `Bt` and the two bias vectors. -/
def entry (A0 NE : S50000x128.Idx → EReal) (WS : S50000.Idx → EReal) (At Bt : S128x128.Idx → EReal)
    (bs bn : S128.Idx → EReal) (r : Fin 50000) (q : Fin 128) : EReal :=
  rowOut (fun k => A0 (ix2 r k)) (fun k => NE (ix2 r k)) (WS (ix1 r)) At Bt (bs (ix1 q)) (bn (ix1 q)) q

/-- THE RESULT ARRAY: at every index its entry. -/
def G (A0 NE : S50000x128.Idx → EReal) (WS : S50000.Idx → EReal) (At Bt : S128x128.Idx → EReal)
    (bs bn : S128.Idx → EReal) : S50000x128.Idx → EReal :=
  fun i => entry A0 NE WS At Bt bs bn (i 0) (i 1)

theorem G_ix2 (A0 NE : S50000x128.Idx → EReal) (WS : S50000.Idx → EReal) (At Bt : S128x128.Idx → EReal)
    (bs bn : S128.Idx → EReal) (r : Fin 50000) (q : Fin 128) :
    G A0 NE WS At Bt bs bn (ix2 r q) = entry A0 NE WS At Bt bs bn r q := rfl

end Cert.Combine

end
-- ==== Proof.RegionArrays.lean ====
/-
  What the region finds in the arrays that the host operations before it wrote.

  The region's own argument arrays are as launched. Six of the seven arrays it reads were written on the way: the
  aggregated neighbour rows and the weight sums (the shared aggregation of Proof/Whole.lean, the sums reshaped to a
  column), each weight matrix transposed, and each bias vector reshaped to a single row. Each statement reads the
  host operations' composed term off the fold of the operations before the region; none opens the aggregation.
-/
import proofs.«115637_j53704271069550_1_alg».proof.Proof.Gen.KernelIdeal.Frame
import proofs.«115637_j53704271069550_1_alg».proof.Proof.Whole
import Idealize.ShloMosaic.Lib.StableHlo.Run
import Idealize.ShloMosaic.PureOps.Ideal

noncomputable section

namespace Cert.Combine.Region

open Cert.KernelIdeal Cert.KernelIdeal.Gen
open Idealize.ShloMosaic Idealize.ShloMosaic.TcCoe Idealize.SL.Sem Idealize.ShloMosaic.StableHlo Cert.Combine

variable (m : (ℓ : Loc nD τ sig) → Buf (Elt Ideal) ℓ)

set_option maxHeartbeats 2000000 in
/-- The neighbour rows the region reads are the aggregation of the launched arguments. -/
theorem found_neigh (c : Dev nD) :
    (V m c main_v12 : S50000x128.Idx → EReal)
      = neighOf (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp <;> rfl

/-- The column of weight sums the region reads is the weight sums of the launched arguments, one per row. -/
theorem found_wsCol (c : Dev nD) :
    (V m c main_v16 : S50000x1.Idx → EReal)
      = shapeCast S50000x1 (wsOf (m ((c : Thread nD τ).loc main_arg1)) (m ((c : Thread nD τ).loc main_arg3)))
          shapeCasts_S50000_S50000x1 := by
  dsimp only [Gen.V, Gen.hostOps0]
  after_results_simp <;> rfl

/-- The first weight matrix reaches the region transposed. -/
theorem found_selfT (c : Dev nD) :
    (V m c main_v17 : S128x128.Idx → EReal)
      = transpose S128x128 [1, 0] (m ((c : Thread nD τ).loc main_arg4)) transposes_S128x128_S128x128_1_0 := by
  dsimp only [Gen.V, Gen.hostOps0]
  after_results_simp <;> rfl

/-- The second weight matrix reaches the region transposed. -/
theorem found_neighT (c : Dev nD) :
    (V m c main_v18 : S128x128.Idx → EReal)
      = transpose S128x128 [1, 0] (m ((c : Thread nD τ).loc main_arg6)) transposes_S128x128_S128x128_1_0 := by
  dsimp only [Gen.V, Gen.hostOps0]
  after_results_simp <;> rfl

/-- The first bias reaches the region as a single row. -/
theorem found_bselfRow (c : Dev nD) :
    (V m c main_v19 : S1x128.Idx → EReal)
      = shapeCast S1x128 (m ((c : Thread nD τ).loc main_arg5)) shapeCasts_S128_S1x128 := by
  dsimp only [Gen.V, Gen.hostOps0]
  after_results_simp <;> rfl

/-- The second bias reaches the region as a single row. -/
theorem found_bneighRow (c : Dev nD) :
    (V m c main_v20 : S1x128.Idx → EReal)
      = shapeCast S1x128 (m ((c : Thread nD τ).loc main_arg7)) shapeCasts_S128_S1x128 := by
  dsimp only [Gen.V, Gen.hostOps0]
  after_results_simp <;> rfl

end Cert.Combine.Region

end
-- ==== Proof.KernelResult.lean ====
/-
  The kernel's result array as the function `G` of the launched arguments.

  Proof/KernelArray.lean gives the result as a function of the arrays the region finds; Proof/RegionArrays.lean says
  what those are. It remains to read the reshaped vectors back: a vector cast to a column `[50000, 1]` reads
  `(r, 0)` at `r` (the two indices have the same row-major position, `r · 1 + 0 = r`), and a vector cast to a row
  `[1, 128]` reads `(0, q)` at `q`. With those three reads the region's function is `G` of the features, the
  aggregation of the arguments, the transposed matrices and the bias vectors.
-/
import proofs.«115637_j53704271069550_1_alg».proof.Proof.KernelArray
import proofs.«115637_j53704271069550_1_alg».proof.Proof.RegionArrays
import Idealize.ShloMosaic.Lib.ValueLayout

noncomputable section

namespace Cert.Combine.Kernel

open Cert.KernelIdeal Cert.KernelIdeal.Gen
open Idealize.ShloMosaic Idealize.ShloMosaic.TcCoe Idealize.SL.Sem Idealize.ShloMosaic.ValueIdx Cert.Combine

/-- A vector `[50000]` cast to a column `[50000, 1]` reads, at `(r, 0)`, the vector at `r`. -/
theorem col_of_vec (v : S50000.Idx → EReal) (h : S50000.ShapeCasts S50000x1) (r : Fin 50000) :
    shapeCast S50000x1 v h (ix2 r (0 : Fin 1)) = v (ix1 r) :=
  shapeCast_apply v h _ _ (by
    rw [Shape.rowMajor_val_two, Shape.rowMajor_val_one]
    show r.val = r.val * 1 + 0
    omega)

/-- The region's function at a column of weight sums and at bias rows that are casts of vectors is `G` at those
    vectors. -/
theorem found_eq_G (A0 NE : S50000x128.Idx → EReal) (WS : S50000.Idx → EReal) (At Bt : S128x128.Idx → EReal)
    (bs bn : S128.Idx → EReal) (hc : S50000.ShapeCasts S50000x1) (hr : S128.ShapeCasts S1x128) :
    Array.found A0 NE (shapeCast S50000x1 WS hc) At (shapeCast S1x128 bs hr) Bt (shapeCast S1x128 bn hr)
      = G A0 NE WS At Bt bs bn := by
  funext i
  obtain ⟨r, q, rfl⟩ : ∃ (r : Fin 50000) (q : Fin 128), i = ix2 r q := ⟨i 0, i 1, eq_ix2 i⟩
  show rowOut (fun k => A0 (ix2 r k)) (fun k => NE (ix2 r k)) (shapeCast S50000x1 WS hc (ix2 r (0 : Fin 1))) At Bt
      (shapeCast S1x128 bs hr (ix2 (0 : Fin 1) q)) (shapeCast S1x128 bn hr (ix2 (0 : Fin 1) q)) q
    = rowOut (fun k => A0 (ix2 r k)) (fun k => NE (ix2 r k)) (WS (ix1 r)) At Bt (bs (ix1 q)) (bn (ix1 q)) q
  rw [col_of_vec, shapeCast_a_1a_apply, shapeCast_a_1a_apply]

variable (m : (ℓ : Loc nD τ sig) → Buf (Elt Ideal) ℓ) (ρ : Dev nD → PrngReg)

/-- The region's function of the arrays it finds is `G` of the launched arguments. -/
theorem found_args (c : Dev nD) :
    Array.found (V m c main_arg0) (V m c main_v12) (V m c main_v16) (V m c main_v17) (V m c main_v19) (V m c main_v18)
        (V m c main_v20)
      = G (m ((c : Thread nD τ).loc main_arg0))
          (neighOf (m ((c : Thread nD τ).loc main_arg0)) (m ((c : Thread nD τ).loc main_arg1)) (m ((c : Thread nD τ).loc main_arg2)) (m ((c : Thread nD τ).loc main_arg3)))
          (wsOf (m ((c : Thread nD τ).loc main_arg1)) (m ((c : Thread nD τ).loc main_arg3)))
          (transpose S128x128 [1, 0] (m ((c : Thread nD τ).loc main_arg4)) transposes_S128x128_S128x128_1_0)
          (transpose S128x128 [1, 0] (m ((c : Thread nD τ).loc main_arg6)) transposes_S128x128_S128x128_1_0)
          (m ((c : Thread nD τ).loc main_arg5)) (m ((c : Thread nD τ).loc main_arg7)) := by
  rw [V_main_arg0 m c, Region.found_neigh m c, Region.found_wsCol m c, Region.found_selfT m c, Region.found_bselfRow m c,
    Region.found_neighT m c, Region.found_bneighRow m c]
  exact found_eq_G _ _ _ _ _ _ _ _ _

/-- THE KERNEL'S RUN: every weakly fair execution terminates with the result array at `G` of the launched arguments,
    the arguments unchanged. -/
theorem run : θ_run defs (onTc (τ := τ) (main (F := Ideal))) ⟨m, fun _ => 0, ρ⟩ fun r => ∀ c : Dev nD,
      r.2.mem ((c : Thread nD τ).loc main_v21)
        = G (m ((c : Thread nD τ).loc main_arg0))
          (neighOf (m ((c : Thread nD τ).loc main_arg0)) (m ((c : Thread nD τ).loc main_arg1)) (m ((c : Thread nD τ).loc main_arg2)) (m ((c : Thread nD τ).loc main_arg3)))
          (wsOf (m ((c : Thread nD τ).loc main_arg1)) (m ((c : Thread nD τ).loc main_arg3)))
          (transpose S128x128 [1, 0] (m ((c : Thread nD τ).loc main_arg4)) transposes_S128x128_S128x128_1_0)
          (transpose S128x128 [1, 0] (m ((c : Thread nD τ).loc main_arg6)) transposes_S128x128_S128x128_1_0)
          (m ((c : Thread nD τ).loc main_arg5)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (found_args m c), (h c).2⟩) (Array.run_found m ρ)

end Cert.Combine.Kernel

end
-- ==== Proof.RefResult.lean ====
/-
  The reference's result array is the same function `G` of its arguments.

  The reference applies the same aggregation (named, not opened: its two stages ARE `neighOf` and `wsOf`, and its two
  transposed matrices are the kernel's), then — stage by stage, each read at an index — divides every aggregated row
  by its clamped weight sum, multiplies the feature rows and the divided rows into the transposed matrices as sums
  over the contracted axis, adds the two biases in the same order as the kernel, and divides by `2.0`. A bias
  `[128]` broadcast to a row and then over the rows reads `(r, q)` at `q`; the clamped sums `[50000]` broadcast to a
  column and then along it read `(r, k)` at `r`. So entry `(r, q)` is the four-term row sum divided by `2.0`, which is
  the row function by the halving law of Proof/RowCombine.lean.
-/
import proofs.«115637_j53704271069550_1_alg».proof.Proof.Gen.ReferenceIdeal.Read
import proofs.«115637_j53704271069550_1_alg».proof.Proof.Gen.KernelIdeal
import proofs.«115637_j53704271069550_1_alg».proof.Proof.Whole

noncomputable section

namespace Cert.Combine.Ref

open Cert.ReferenceIdeal Cert.ReferenceIdeal.Gen Cert.ReferenceIdeal.Read
open Idealize.ShloMosaic Idealize.ShloMosaic.ValueIdx Cert.Combine
open scoped BigOperators

variable (x0 : (⟨S50000x128, .f32⟩ : BufTy).Contents (Elt Ideal)) (x1 : (⟨S800000, .f32⟩ : BufTy).Contents (Elt Ideal))
  (x2 x3 : (⟨S800000, .i32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal))

/-! ## The shared stages are the same terms -/

/-- The reference's aggregated rows are the shared aggregation of its arguments. -/
theorem agg_rows : val_main_v12 (F := Ideal) x0 x1 x2 x3 = neighOf x0 x1 x2 x3 := rfl

/-- The reference's weight sums are the shared weight sums of its arguments. -/
theorem agg_sums : val_main_v15 (F := Ideal) x1 x3 = wsOf x1 x3 := rfl

/-- The reference transposes the first weight matrix as the kernel's host stage does. -/
theorem selfT : val_main_v21 (F := Ideal) x4 = (transpose Cert.KernelIdeal.S128x128 [1, 0] x4 Cert.KernelIdeal.Gen.transposes_S128x128_S128x128_1_0) := rfl

/-- The reference transposes the second weight matrix as the kernel's host stage does. -/
theorem neighT : val_main_v26 (F := Ideal) x6 = (transpose Cert.KernelIdeal.S128x128 [1, 0] x6 Cert.KernelIdeal.Gen.transposes_S128x128_S128x128_1_0) := rfl

/-! ## One entry of the reference's result -/

/-- ENTRY `(r, q)` OF THE REFERENCE'S RESULT is the entry function at its own stages. -/
theorem ref_entry (r : Fin 50000) (q : Fin 128) :
    val_main_v33 (F := Ideal) x0 x1 x2 x3 x4 x5 x6 x7 (ix2 r q)
      = entry x0 (val_main_v12 (F := Ideal) x0 x1 x2 x3) (val_main_v15 (F := Ideal) x1 x3) (val_main_v21 (F := Ideal) x4)
          (val_main_v26 (F := Ideal) x6) x5 x7 r q := by
  -- the stages' composed index functions, at entry (r, q) and contraction index k
  have el : ∀ k : Fin 128, lidx_main_v22 (ix2 r q) k = ix2 r k := fun k => funext fun a => Fin.ext (by match a with | ⟨0, _⟩ => rfl | ⟨1, _⟩ => rfl)
  have er : ∀ k : Fin 128, ridx_main_v22 (ix2 r q) k = ix2 k q := fun k => funext fun a => Fin.ext (by match a with | ⟨0, _⟩ => rfl | ⟨1, _⟩ => rfl)
  have el' : ∀ k : Fin 128, lidx_main_v27 (ix2 r q) k = ix2 r k := fun k => funext fun a => Fin.ext (by match a with | ⟨0, _⟩ => rfl | ⟨1, _⟩ => rfl)
  have er' : ∀ k : Fin 128, ridx_main_v27 (ix2 r q) k = ix2 k q := fun k => funext fun a => Fin.ext (by match a with | ⟨0, _⟩ => rfl | ⟨1, _⟩ => rfl)
  have ew : ∀ k : Fin 128, idx_main_v18 (idx_main_v19 (ix2 r k)) = ix1 r := fun k => funext fun a => Fin.ext (by match a with | ⟨0, _⟩ => rfl)
  have eb : idx_main_v23 (idx_main_v24 (ix2 r q)) = ix1 q := funext fun a => Fin.ext (by match a with | ⟨0, _⟩ => rfl)
  have eb' : idx_main_v29 (idx_main_v30 (ix2 r q)) = ix1 q := funext fun a => Fin.ext (by match a with | ⟨0, _⟩ => rfl)
  rw [val_main_v33_apply, val_main_v31_apply, val_main_v28_apply, val_main_v25_apply, val_main_v22_apply,
    val_main_v24_apply, val_main_v23_apply, val_main_v27_apply, val_main_v30_apply, val_main_v29_apply,
    val_main_v32_apply, val_main_cst_3_apply]
  rw [eb, eb']
  -- the features' product: the stage's operand indices are (r, k) and (k, q)
  have s1 : (∑ k : Fin 128, x0 (lidx_main_v22 (ix2 r q) k) * val_main_v21 (F := Ideal) x4 (ridx_main_v22 (ix2 r q) k))
      = ∑ k : Fin 128, x0 (ix2 r k) * val_main_v21 (F := Ideal) x4 (ix2 k q) :=
    Finset.sum_congr rfl fun k _ => by rw [el k, er k]
  -- the neighbour product: every factor of row r is the aggregated entry divided by the ONE clamped sum of row r
  have s2 : (∑ k : Fin 128, val_main_v20 (F := Ideal) x0 x1 x2 x3 (lidx_main_v27 (ix2 r q) k)
        * val_main_v26 (F := Ideal) x6 (ridx_main_v27 (ix2 r q) k))
      = ∑ k : Fin 128, Ideal.div (val_main_v12 (F := Ideal) x0 x1 x2 x3 (ix2 r k))
          (max (val_main_v15 (F := Ideal) x1 x3 (ix1 r)) (Ideal.ofBits .f32 0x3F800000#32))
        * val_main_v26 (F := Ideal) x6 (ix2 k q) :=
    Finset.sum_congr rfl fun k _ => by
      rw [el' k, er' k, val_main_v20_apply, val_main_v19_apply, val_main_v18_apply, ew k, val_main_v17_apply,
        val_main_v16_apply, val_main_cst_2_apply]
      rfl
  rw [s1, s2]
  exact rowSum_div_two (fun k => x0 (ix2 r k)) (fun k => val_main_v12 (F := Ideal) x0 x1 x2 x3 (ix2 r k))
    (val_main_v15 (F := Ideal) x1 x3 (ix1 r)) (val_main_v21 (F := Ideal) x4) (val_main_v26 (F := Ideal) x6)
    (x5 (ix1 q)) (x7 (ix1 q)) q

/-! ## The whole array -/

/-- THE REFERENCE'S RESULT ARRAY is `G` of the features, the shared aggregation of the arguments, the transposed
    matrices and the bias vectors — the very term the kernel's run ends at. -/
theorem result_eq :
    val_main_v33 (F := Ideal) x0 x1 x2 x3 x4 x5 x6 x7
      = G x0 (neighOf x0 x1 x2 x3) (wsOf x1 x3) (transpose Cert.KernelIdeal.S128x128 [1, 0] x4 Cert.KernelIdeal.Gen.transposes_S128x128_S128x128_1_0)
          (transpose Cert.KernelIdeal.S128x128 [1, 0] x6 Cert.KernelIdeal.Gen.transposes_S128x128_S128x128_1_0) x5 x7 := by
  funext i
  obtain ⟨r, q, rfl⟩ : ∃ (r : Fin 50000) (q : Fin 128), i = ix2 r q := ⟨i 0, i 1, eq_ix2 i⟩
  rw [ref_entry, agg_rows, agg_sums, selfT, neighT]
  rfl

end Cert.Combine.Ref

end
-- ==== Proof.lean ====
/-
  The combine stage of a weighted-mean graph layer, against its reference, over the extended reals.

  Both programs first aggregate over the edges: every edge carries its source node's feature row, scaled by the
  edge's weight, to its destination node, where the rows add up, and the weights add up per destination. Then, for
  node `r` and output feature `q`, both form

      ((Σₖ feat(r,k) · W_self(q,k) + b_self(q)) + Σₖ (neigh(r,k) / max(ws(r), 1)) · W_neigh(q,k) + b_neigh(q)) ,

  the kernel block by block (25 blocks of 2000 rows, two matrix products per block into zero accumulators, the
  inputs narrowed to bf16 on the way — the identity on exact values) and then times `0.5`; the reference on whole
  arrays and then divided by `2.0`. At the exact values a matrix product is the plain sum over the contracted axis
  whatever its tiling, the four terms are added in the same order by both, and dividing by `2` is multiplying by
  `1/2` for EVERY extended real, the infinities included: so the two results are equal entry by entry and the
  finiteness of the inputs is never used.

  The modules: Proof/RowCombine.lean (one entry as a function of one row; the halving law), Proof/BlockEntry.lean (the
  value the body stores, at an entry), Proof/Whole.lean (the shared aggregation, named and never opened; the result
  array as one function `G`), Proof/RegionArrays.lean (what the region finds in the arrays the host wrote),
  Proof/KernelArray.lean (from the blocks to the whole array), Proof/KernelResult.lean (the kernel's run ends at `G`),
  Proof/RefResult.lean (the reference's run ends at `G`). Here: the three frames, the idealization (the pass rewrote
  nothing) and the equality of the two results.
-/
import proofs.«115637_j53704271069550_1_alg».proof.Defs
import proofs.«115637_j53704271069550_1_alg».proof.Proof.Gen.Kernel
import proofs.«115637_j53704271069550_1_alg».proof.Proof.Gen.Kernel.Skeleton
import proofs.«115637_j53704271069550_1_alg».proof.Proof.Gen.Kernel.Launch
import proofs.«115637_j53704271069550_1_alg».proof.Proof.Gen.Kernel.Points
import proofs.«115637_j53704271069550_1_alg».proof.Proof.Gen.Kernel.Frame
import proofs.«115637_j53704271069550_1_alg».proof.Proof.Gen.KernelIdeal
import proofs.«115637_j53704271069550_1_alg».proof.Proof.Gen.KernelIdeal.Skeleton
import proofs.«115637_j53704271069550_1_alg».proof.Proof.Gen.KernelIdeal.Launch
import proofs.«115637_j53704271069550_1_alg».proof.Proof.Gen.KernelIdeal.Points
import proofs.«115637_j53704271069550_1_alg».proof.Proof.Gen.KernelIdeal.Frame
import proofs.«115637_j53704271069550_1_alg».proof.Proof.Gen.ReferenceIdeal
import proofs.«115637_j53704271069550_1_alg».proof.Proof.Gen.Pre_finite_inputs
import proofs.«115637_j53704271069550_1_alg».proof.Proof.Gen.KernelIdeal.Value
import proofs.«115637_j53704271069550_1_alg».proof.Proof.Gen.ReferenceIdeal.Run
import proofs.«115637_j53704271069550_1_alg».proof.Proof.Gen.ReferenceIdeal.Read
import proofs.«115637_j53704271069550_1_alg».proof.Proof.KernelResult
import proofs.«115637_j53704271069550_1_alg».proof.Proof.RefResult
import Idealize.ShloMosaic.Adequacy
import Idealize.ShloMosaic.Init

noncomputable section

namespace Cert.Proof

open Idealize.ShloMosaic Idealize.SL.Sem

/-- The kernel runs and leaves its arguments unchanged, whatever the inputs. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories that agree on the arguments, the kernel's result array ends at `G` of its arguments and the
    reference's at `G` of its own: the same array, entry by entry. -/
theorem algebraic : Cert.algebraic_KernelIdeal_ReferenceIdeal := by
  intro m ρ m' ρ' _ hagree
  refine ⟨_, Cert.Combine.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v33_eq, Cert.Combine.Ref.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
